-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x56x56 : Shape := ⟨4, ![64, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S64x512x56x56 : S_.BroadcastsInDim S64x512x56x56 (![] : Fin 0 → Fin S64x512x56x56.rank)
  reducesTo_S64x512x56x56_S_d0_1_2_3 : S64x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S512 .f32) (main_arg9 : FVec F S512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S32 .f32) (main_arg5 : FVec F S32 .f32) (main_arg6 : FVec F S512x32 .f32) (main_arg7 : FVec F S512 .f32) (main_arg8 : FVec F S512 .f32) (main_arg9 : FVec F S512 .f32) (main_arg10 : FVec F S512 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S512x32 .f32 := Host.absf main_arg6
  let main_cst_10 : FVec F S_ .f32 := constant S_ .f32 0x7F800000#32
  let main_v30 : FVec F S512x32 .f32 := broadcastInDim S512x32 ![] bcast_S_S512x32 main_cst_10
  let main_v31 : IVec S512x32 1 := cmpf .olt main_v29 main_v30
  let main_c_11 : IVec S_ 1 := constantI S_ 1 1#1
  let main_v32 : IVec S_ 1 := (fun x v => Host.reduce IntOp.andi x v reducesTo_S512x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S64x512x56x56 .f32) (main_arg1 : FVec F S32x512 .f32) (main_arg2 : FVec F S32 .f32) (main_arg3 : FVec F S32 .f32) (main_arg4 : FVec F S32 .f32) (main_arg5 : FVec F S32 .f32) (main_arg6 : FVec F S512x32 .f32) (main_arg7 : FVec F S512 .f32) (main_arg8 : FVec F S512 .f32) (main_arg9 : FVec F S512 .f32) (main_arg10 : FVec F S512 .f32) : IVec S_ 1 :=
  let main_v0 : FVec F S64x512x56x56 .f32 := Host.absf main_arg0
  let main_cst : FVec F S_ .f32 := constant S_ .f32 0x7F800000#32
  let main_v1 : FVec F S64x512x56x56 .f32 := broadcastInDim S64x512x56x56 ![] bcast_S_S64x512x56x56 main_cst
  let main_v2 : IVec S64x512x56x56 1 := cmpf .olt main_v0 main_v1
  let main_c : IVec S_ 1 := constantI S_ 1 1#1
  let main_v3 : IVec S_ 1 := (fun x v => Host.reduce IntOp.andi x v reducesTo_S64x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_v13 main_v16
-- ==== Kernel.lean ====
abbrev S64x512x56x56 : Shape := ⟨4, ![64, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S64x512x3136 : Shape := ⟨3, ![64, 512, 3136]⟩
abbrev S64x512 : Shape := ⟨2, ![64, 512]⟩
abbrev S64x32 : Shape := ⟨2, ![64, 32]⟩
abbrev S1x32 : Shape := ⟨2, ![1, 32]⟩
abbrev S_ : Shape := ⟨0, ![]⟩
abbrev S1x512 : Shape := ⟨2, ![1, 512]⟩
abbrev S16x128x3136 : Shape := ⟨3, ![16, 128, 3136]⟩
abbrev S16x128 : Shape := ⟨2, ![16, 128]⟩
abbrev S8x128x3136 : Shape := ⟨3, ![8, 128, 3136]⟩
abbrev S8x128 : Shape := ⟨2, ![8, 128]⟩
abbrev S8x128x1 : Shape := ⟨3, ![8, 128, 1]⟩

abbrev nBuf : Space → Nat
  | .hbm => 60
  | .vmem => 10
  | .smem => 0
  | _ => 0

abbrev bufTy : (tb : Table) → Fin (tcTables nBuf tb) → BufTy
  | .hbm, ⟨0, _⟩ => ⟨S64x512x56x56, .f32⟩
  | .hbm, ⟨1, _⟩ => ⟨S32x512, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S512x32, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S64x512x3136, .f32⟩
  | .hbm, ⟨12, _⟩ => ⟨S64x512, .f32⟩
  | .hbm, ⟨13, _⟩ => ⟨S64x32, .f32⟩
  | .hbm, ⟨14, _⟩ => ⟨S1x32, .f32⟩
  | .hbm, ⟨15, _⟩ => ⟨S64x32, .f32⟩
  | .hbm, ⟨16, _⟩ => ⟨S64x32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S1x32, .f32⟩
  | .hbm, ⟨22, _⟩ => ⟨S64x32, .f32⟩
  | .hbm, ⟨23, _⟩ => ⟨S64x32, .f32⟩
  | .hbm, ⟨24, _⟩ => ⟨S1x32, .f32⟩
  | .hbm, ⟨25, _⟩ => ⟨S64x32, .f32⟩
  | .hbm, ⟨26, _⟩ => ⟨S64x32, .f32⟩
  | .hbm, ⟨27, _⟩ => ⟨S1x32, .f32⟩
  | .hbm, ⟨28, _⟩ => ⟨S64x32, .f32⟩
  | .hbm, ⟨29, _⟩ => ⟨S64x32, .f32⟩
  | .hbm, ⟨30, _⟩ => ⟨S_, .f32⟩
  | .hbm, ⟨31, _⟩ => ⟨S64x32, .f32⟩
  | .hbm, ⟨32, _⟩ => ⟨S64x32, .f32⟩
  | .hbm, ⟨33, _⟩ => ⟨S64x512, .f32⟩
  | .hbm, ⟨34, _⟩ => ⟨S1x512, .f32⟩
  | .hbm, ⟨35, _⟩ => ⟨S64x512, .f32⟩
  | .hbm, ⟨36, _⟩ => ⟨S64x512, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S512, .f32⟩
  | .hbm, ⟨41, _⟩ => ⟨S1x512, .f32⟩
  | .hbm, ⟨42, _⟩ => ⟨S64x512, .f32⟩
  | .hbm, ⟨43, _⟩ => ⟨S64x512, .f32⟩
  | .hbm, ⟨44, _⟩ => ⟨S1x512, .f32⟩
  | .hbm, ⟨45, _⟩ => ⟨S64x512, .f32⟩
  | .hbm, ⟨46, _⟩ => ⟨S64x512, .f32⟩
  | .hbm, ⟨47, _⟩ => ⟨S1x512, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S_, .f32⟩
  | .hbm, ⟨53, _⟩ => ⟨S64x512, .f32⟩
  | .hbm, ⟨54, _⟩ => ⟨S64x512, .f32⟩
  | .hbm, ⟨55, _⟩ => ⟨S_, .f32⟩
  | .hbm, ⟨56, _⟩ => ⟨S64x512, .f32⟩
  | .hbm, ⟨57, _⟩ => ⟨S64x512, .f32⟩
  | .hbm, ⟨58, _⟩ => ⟨S64x512x3136, .f32⟩
  | .hbm, ⟨59, _⟩ => ⟨S64x512x56x56, .f32⟩
  | .local _ .vmem, ⟨0, _⟩ => ⟨S16x128x3136, .f32⟩
  | .local _ .vmem, ⟨1, _⟩ => ⟨S16x128x3136, .f32⟩
  | .local _ .vmem, ⟨2, _⟩ => ⟨S16x128, .f32⟩
  | .local _ .vmem, ⟨3, _⟩ => ⟨S16x128, .f32⟩
  | .local _ .vmem, ⟨4, _⟩ => ⟨S8x128x3136, .f32⟩
  | .local _ .vmem, ⟨5, _⟩ => ⟨S8x128x3136, .f32⟩
  | .local _ .vmem, ⟨6, _⟩ => ⟨S8x128, .f32⟩
  | .local _ .vmem, ⟨7, _⟩ => ⟨S8x128, .f32⟩
  | .local _ .vmem, ⟨8, _⟩ => ⟨S8x128x3136, .f32⟩
  | .local _ .vmem, ⟨9, _⟩ => ⟨S8x128x3136, .f32⟩
  | _, _ => ⟨S64x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_cst_0 : Ref sig .tc := ⟨.hbm, 37, rfl⟩
abbrev main_call0_v23 : Ref sig .tc := ⟨.hbm, 38, rfl⟩
abbrev main_call0_v24 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_cst_1 : Ref sig .tc := ⟨.hbm, 52, rfl⟩
abbrev main_call0_v37 : Ref sig .tc := ⟨.hbm, 53, rfl⟩
abbrev main_call0_v38 : Ref sig .tc := ⟨.hbm, 54, rfl⟩
abbrev main_call0_cst_2 : Ref sig .tc := ⟨.hbm, 55, rfl⟩
abbrev main_call0_v39 : Ref sig .tc := ⟨.hbm, 56, rfl⟩
abbrev main_call0_v40 : Ref sig .tc := ⟨.hbm, 57, rfl⟩
abbrev main_call0_v41 : Ref sig .tc := ⟨.hbm, 58, rfl⟩
abbrev main_v0 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S8x128x3136 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128x3136 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S64x512x56x56_S64x512x3136 : S64x512x56x56.ShapeCasts S64x512x3136
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S32 : S_.BroadcastsInDim S32 (![] : Fin 0 → Fin S32.rank)
  bcast_S_S64x32 : S_.BroadcastsInDim S64x32 (![] : Fin 0 → Fin S64x32.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S512 : S_.BroadcastsInDim S512 (![] : Fin 0 → Fin S512.rank)
  bcast_S_S64x512 : S_.BroadcastsInDim S64x512 (![] : Fin 0 → Fin S64x512.rank)
  shapeCasts_S64x512x3136_S64x512x56x56 : S64x512x3136.ShapeCasts S64x512x56x56
  inb_S16x128x3136_S16x128x3136_0_0_0 : ∀ a, (![0, 0, 0] : Fin 3 → Nat) a + S16x128x3136.size a ≤ S16x128x3136.size a
  h_S16x128x3136 : 0 < S16x128x3136.numel
  shapeCasts_S16x128x3136_S16x128x3136 : S16x128x3136.ShapeCasts S16x128x3136
  reduces_S16x128x3136_S16x128 : S16x128x3136.Reduces [2] S16x128
  inb_S16x128_S16x128_0_0 : ∀ a, (![0, 0] : Fin 2 → Nat) a + S16x128.size a ≤ S16x128.size a
  h_S16x128 : 0 < S16x128.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x3136_S8x128x3136_0_0_0 : ∀ a, (![0, 0, 0] : Fin 3 → Nat) a + S8x128x3136.size a ≤ S8x128x3136.size a
  h_S8x128x3136 : 0 < S8x128x3136.numel
  shapeCasts_S8x128x3136_S8x128x3136 : S8x128x3136.ShapeCasts S8x128x3136
  shapeCasts_S8x128_S8x128x1 : S8x128.ShapeCasts S8x128x1
  broadcasts_S8x128x1_S8x128x3136 : S8x128x1.Broadcasts S8x128x3136
  dot_S64x512_S32x512_S64x32_1_1_0_0_n_n_wf : DotDims.WF S64x512 S32x512 S64x32 [1] [1] [0] [0] [] []
  dot_S64x32_S512x32_S64x512_1_1_0_0_n_n_wf : DotDims.WF S64x32 S512x32 S64x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x3136.size a ≤ S64x512x3136.size a
  hwx0_0 : ∀ i : grid0.Coords, EltTy.bits .f32 = 32 ∨ (Rect.block (s := S64x512x3136) S16x128x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S64x512.size a
  hwx0_1 : ∀ i : grid0.Coords, EltTy.bits .f32 = 32 ∨ (Rect.block (s := S64x512) S16x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x3136.size a ≤ S64x512x3136.size a
  hwx1_0 : ∀ i : grid1.Coords, EltTy.bits .f32 = 32 ∨ (Rect.block (s := S64x512x3136) S8x128x3136.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S64x512.size a
  hwx1_1 : ∀ i : grid1.Coords, EltTy.bits .f32 = 32 ∨ (Rect.block (s := S64x512) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128x3136.size a ≤ S64x512x3136.size a
  hwx1_2 : ∀ i : grid1.Coords, EltTy.bits .f32 = 32 ∨ (Rect.block (s := S64x512x3136) S8x128x3136.size (cc1_transform_2 i) (hinb1_2 i)).WholeWords (EltTy.packing .f32)

variable [Facts₀]

def dot_S64x512_S32x512_S64x32_1_1_0_0_n_n : DotDims S64x512 S32x512 S64x32 where
  lhsContracting := [1]
  rhsContracting := [1]
  lhsNonContracting := [0]
  rhsNonContracting := [0]
  lhsBatch := []
  rhsBatch := []
  wf := dot_S64x512_S32x512_S64x32_1_1_0_0_n_n_wf
def dot_S64x32_S512x32_S64x512_1_1_0_0_n_n : DotDims S64x32 S512x32 S64x512 where
  lhsContracting := [1]
  rhsContracting := [1]
  lhsNonContracting := [0]
  rhsNonContracting := [0]
  lhsBatch := []
  rhsBatch := []
  wf := dot_S64x32_S512x32_S64x512_1_1_0_0_n_n_wf

abbrev win0_0 : Pipeline.Window sig grid0 :=
  Pipeline.Window.ofSpec (Memref.whole main_call0_v0) S16x128x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S16x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_call0_v0) S8x128x3136.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v40) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v41) S8x128x3136.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where
  halias1_2 : Pipeline.Aliased win1 0 2

variable [Facts]
-- ==== ReferenceIdeal.lean ====
abbrev S64x512x56x56 : Shape := ⟨4, ![64, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩
abbrev S64x512 : Shape := ⟨2, ![64, 512]⟩
abbrev S64x32 : Shape := ⟨2, ![64, 32]⟩
abbrev S1x32 : Shape := ⟨2, ![1, 32]⟩
abbrev S1x512 : Shape := ⟨2, ![1, 512]⟩
abbrev S64x512x1x1 : Shape := ⟨4, ![64, 512, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S64x512x56x56, .f32⟩
  | .hbm, ⟨1, _⟩ => ⟨S32x512, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S512x32, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S64x512, .f32⟩
  | .hbm, ⟨13, _⟩ => ⟨S_, .f32⟩
  | .hbm, ⟨14, _⟩ => ⟨S64x512, .f32⟩
  | .hbm, ⟨15, _⟩ => ⟨S64x512, .f32⟩
  | .hbm, ⟨16, _⟩ => ⟨S64x32, .f32⟩
  | .hbm, ⟨17, _⟩ => ⟨S1x32, .f32⟩
  | .hbm, ⟨18, _⟩ => ⟨S64x32, .f32⟩
  | .hbm, ⟨19, _⟩ => ⟨S64x32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S1x32, .f32⟩
  | .hbm, ⟨25, _⟩ => ⟨S64x32, .f32⟩
  | .hbm, ⟨26, _⟩ => ⟨S64x32, .f32⟩
  | .hbm, ⟨27, _⟩ => ⟨S1x32, .f32⟩
  | .hbm, ⟨28, _⟩ => ⟨S64x32, .f32⟩
  | .hbm, ⟨29, _⟩ => ⟨S64x32, .f32⟩
  | .hbm, ⟨30, _⟩ => ⟨S1x32, .f32⟩
  | .hbm, ⟨31, _⟩ => ⟨S64x32, .f32⟩
  | .hbm, ⟨32, _⟩ => ⟨S64x32, .f32⟩
  | .hbm, ⟨33, _⟩ => ⟨S_, .f32⟩
  | .hbm, ⟨34, _⟩ => ⟨S64x32, .f32⟩
  | .hbm, ⟨35, _⟩ => ⟨S64x32, .f32⟩
  | .hbm, ⟨36, _⟩ => ⟨S64x512, .f32⟩
  | .hbm, ⟨37, _⟩ => ⟨S1x512, .f32⟩
  | .hbm, ⟨38, _⟩ => ⟨S64x512, .f32⟩
  | .hbm, ⟨39, _⟩ => ⟨S64x512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S512, .f32⟩
  | .hbm, ⟨44, _⟩ => ⟨S1x512, .f32⟩
  | .hbm, ⟨45, _⟩ => ⟨S64x512, .f32⟩
  | .hbm, ⟨46, _⟩ => ⟨S64x512, .f32⟩
  | .hbm, ⟨47, _⟩ => ⟨S1x512, .f32⟩
  | .hbm, ⟨48, _⟩ => ⟨S64x512, .f32⟩
  | .hbm, ⟨49, _⟩ => ⟨S64x512, .f32⟩
  | .hbm, ⟨50, _⟩ => ⟨S1x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S64x512, .f32⟩
  | .hbm, ⟨55, _⟩ => ⟨S_, .f32⟩
  | .hbm, ⟨56, _⟩ => ⟨S64x512, .f32⟩
  | .hbm, ⟨57, _⟩ => ⟨S64x512, .f32⟩
  | .hbm, ⟨58, _⟩ => ⟨S_, .f32⟩
  | .hbm, ⟨59, _⟩ => ⟨S64x512, .f32⟩
  | .hbm, ⟨60, _⟩ => ⟨S64x512, .f32⟩
  | .hbm, ⟨61, _⟩ => ⟨S64x512x1x1, .f32⟩
  | .hbm, ⟨62, _⟩ => ⟨S64x512x56x56, .f32⟩
  | .hbm, ⟨63, _⟩ => ⟨S64x512x56x56, .f32⟩
  | _, _ => ⟨S64x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_cst_4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  reducesTo_S64x512x56x56_S64x512_d2_3 : S64x512x56x56.ReducesTo [2, 3] S64x512
  h_S_ : 0 < S_.numel
  bcast_S_S64x512 : S_.BroadcastsInDim S64x512 (![] : Fin 0 → Fin S64x512.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S32 : S_.BroadcastsInDim S32 (![] : Fin 0 → Fin S32.rank)
  bcast_S_S64x32 : S_.BroadcastsInDim S64x32 (![] : Fin 0 → Fin S64x32.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S512 : S_.BroadcastsInDim S512 (![] : Fin 0 → Fin S512.rank)
  bcast_S64x512_S64x512x1x1_0_1 : S64x512.BroadcastsInDim S64x512x1x1 (![0, 1] : Fin 2 → Fin S64x512x1x1.rank)
  bcast_S64x512x1x1_S64x512x56x56_0_1_2_3 : S64x512x1x1.BroadcastsInDim S64x512x56x56 (![0, 1, 2, 3] : Fin 4 → Fin S64x512x56x56.rank)
  dot_S64x512_S32x512_S64x32_1_1_0_0_n_n_wf : DotDims.WF S64x512 S32x512 S64x32 [1] [1] [0] [0] [] []
  dot_S64x32_S512x32_S64x512_1_1_0_0_n_n_wf : DotDims.WF S64x32 S512x32 S64x512 [1] [1] [0] [0] [] []

variable [Facts₀]

def dot_S64x512_S32x512_S64x32_1_1_0_0_n_n : DotDims S64x512 S32x512 S64x32 where
  lhsContracting := [1]
  rhsContracting := [1]
  lhsNonContracting := [0]
  rhsNonContracting := [0]
  lhsBatch := []
  rhsBatch := []
  wf := dot_S64x512_S32x512_S64x32_1_1_0_0_n_n_wf
def dot_S64x32_S512x32_S64x512_1_1_0_0_n_n : DotDims S64x32 S512x32 S64x512 where
  lhsContracting := [1]
  rhsContracting := [1]
  lhsNonContracting := [0]
  rhsNonContracting := [0]
  lhsBatch := []
  rhsBatch := []
  wf := dot_S64x32_S512x32_S64x512_1_1_0_0_n_n_wf

class Facts : Prop extends Facts₀ where

variable [Facts]
-- ==== Proof.KernelRun.lean ====
/-
  The kernel program's run, with every buffer named at the end.

  The program is five stretches in a row: the re-laying of the input as [64, 512, 3136]; the pooling region; the
  gate's host arithmetic; the scaling region; the re-laying of the result as [64, 512, 56, 56].  The buffer contents
  at each boundary are a fold from the launch memory (`W0` … `W5` of the generated frame module).  Every weakly fair
  execution terminates without a fault, and in the final memory every buffer that is not scoped to a region holds
  what the last boundary `W5` says — in particular the result buffer, which the frame claim alone does not mention.
-/
import proofs.«115239_j10788957847763_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final memory holds, at each
    buffer not scoped to a region, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.RunValue

end
-- ==== Proof.LibLaneSum3.lean ====
/-
  A sum along the last axis of a rank-3 array, read at an entry.

  At the ideal values an additive reduction of an [a, b, c] array along its last axis, started from the zero word,
  is at entry (p, q) the plain sum over k of the array at (p, q, k): the index the reduction inserts the summed
  coordinate into is (p, q, k), coordinate by coordinate.  The statement is generic in the proof arguments a printed
  reduction carries (its shape fact, its format fact, and the fact that its start word is the zero word).
-/
import Idealize.ShloMosaic.PureOps.Ideal.Laws
import Idealize.ShloMosaic.Lib.ValueIdx

noncomputable section

namespace Idealize.ShloMosaic.LaneSum3

open Idealize.ShloMosaic Idealize.ShloMosaic.ValueIdx

/-- An additive reduction of an [a, b, c] array along axis 2 from the zero word, read at (p, q), is the sum over
    the c entries of line (p, q). -/
theorem multiReduction_add_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun ax => Fin.ext ?_)
  match ax with
  | ⟨0, _⟩ => rfl
  | ⟨1, _⟩ => rfl
  | ⟨2, _⟩ => rfl

end Idealize.ShloMosaic.LaneSum3

end
-- ==== Proof.PooledArray.lean ====
/-
  What the pooling region leaves in its output array.

  The region walks a 4 × 4 grid.  At point (u, v) it stages the block of 16 batch rows × 128 channels × all 3136
  positions of the re-laid input, sums each (row, channel) line over the 3136 positions starting from the zero word,
  divides by the word of 3136.0, and writes the 16 × 128 block of results back at block (u, v).  The blocks tile the
  [64, 512] array, and entry (b, c) of block (b / 16, c / 128) depends only on line (b, c) of the input.  So the
  array ends as ONE function of the input array: entry (b, c) is (∑ k, xf (b, c, k)) / 3136.0.
-/
import proofs.«115239_j10788957847763_2_alg».proof.Proof.Gen.KernelIdeal.Frame
import proofs.«115239_j10788957847763_2_alg».proof.Proof.LibLaneSum3
import Idealize.ShloMosaic.Lib.Pipeline.Value
import Idealize.ShloMosaic.Lib.ValueIdx

set_option maxRecDepth 16384

noncomputable section

namespace Cert.KernelIdeal.PoolValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- The mean of each (row, channel) line of a [64, 512, 3136] array, as the kernel computes it: the plain sum of the
    line divided by the word of 3136.0. -/
def lineMean (xf : S64x512x3136.Idx → EReal) : S64x512.Idx → EReal :=
  fun i => Ideal.div (∑ k : Fin 3136, xf (ix3 (i 0) (i 1) k)) (Ideal.ofBits .f32 0x45440000#32)

theorem zero2 : (![0, 0] : Fin 2 → Nat) = fun _ => 0 := funext fun a => by fin_cases a <;> rfl
theorem zero3 : (![0, 0, 0] : Fin 3 → Nat) = fun _ => 0 := funext fun a => by fin_cases a <;> rfl

/-- The body's arithmetic on one staged block, read at (p, q): the line's sum over the block's last axis, divided by
    the word of 3136.0. -/
theorem blockMean_apply (x0 : FVec Ideal S16x128x3136 .f32) (p : Fin 16) (q : Fin 128) :
    k0_pay1 (F := Ideal) x0 (ix2 p q)
      = Ideal.div (∑ k : Fin 3136, x0 (ix3 p q k)) (Ideal.ofBits .f32 0x45440000#32) := by
  unfold k0_pay1
  rw [divf_apply, broadcast_apply, shapeCast_self]
  refine congrArg (fun z => Ideal.div z _) ?_
  exact LaneSum3.multiReduction_add_last_apply x0 reduces_S16x128x3136_S16x128 _ _ p q

/-- The printed index maps, decided over the grid: the input block moves with the output block on the two kept axes and
    sits at block 0 of the summed axis; the output's block indices stay in the 4 × 4 range. -/
theorem index_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 3 :=
  (by decide +kernel : ∀ t : Fin grid0.N, _)

/-- Every block of the 4 × 4 tiling is some point's. -/
theorem index_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

variable (V : (c : Dev nD) → (b : Ref sig .tc) → Buf (Elt Ideal) ((c : Thread nD τ).loc b))

/-- What point `t` writes back is block `t` of the line means of the input array as the region finds it. -/
theorem flushed_eq (c : Dev nD) (t : Fin cfg0.N) :
    (dat0 V c).flushed 1 t = ((cfg0.win 1).blk t).view.read (Elt Ideal) (lineMean (V c main_call0_v0)) := by
  show (cfg0.win 1).cut (grid0.coords t) ((dat0 V c).after 1 t) = _
  rw [after0_1]
  unfold out0_1
  rw [View.canon_unit_zero zero2]
  simp only [View.ld_unit_zero (S := S16x128x3136) zero3]
  obtain ⟨e0, e1, e2, e3, e4⟩ := index_facts t
  funext j
  obtain ⟨p, q, rfl⟩ : ∃ (p : Fin 16) (q : Fin 128), j = ix2 p q := ⟨j 0, j 1, eq_ix2 j⟩
  refine (blockMean_apply (iblk0 V c 0 t) p q).trans ?_
  show Ideal.div (∑ k : Fin 3136, V c main_call0_v0 (((cfg0.win 0).blk t).view.emb (ix3 p q k))) _
    = Ideal.div (∑ k : Fin 3136, V c main_call0_v0 (ix3 ((((cfg0.win 1).blk t).view.emb (ix2 p q)) 0) ((((cfg0.win 1).blk t).view.emb (ix2 p q)) 1) k)) _
  refine congrArg (fun z => Ideal.div z _) (Finset.sum_congr rfl fun k _ => congrArg (V c main_call0_v0) ?_)
  funext a; apply Fin.ext
  match a with
  | ⟨0, _⟩ => show win0_0.index t (0 : Fin 3) * 16 + 1 * p.val = win0_1.index t (0 : Fin 2) * 16 + 1 * p.val; omega
  | ⟨1, _⟩ => show win0_0.index t (1 : Fin 3) * 128 + 1 * q.val = win0_1.index t (1 : Fin 2) * 128 + 1 * q.val; omega
  | ⟨2, _⟩ => show win0_0.index t (2 : Fin 3) * 3136 + 1 * k.val = k.val; omega

/-- An index of the [64, 512] array is in point `t`'s block iff each coordinate is in the block's range on its axis. -/
theorem mem_block (t : Fin cfg0.N) (i : S64x512.Idx) :
    i ∈ ((cfg0.win 1).blk t).view.set ↔ ∀ a : Fin 2, win0_1.index t a * S16x128.size a ≤ (i a).val ∧ (i a).val < win0_1.index t a * S16x128.size a + S16x128.size a := by
  show i ∈ ((View.whole main_call0_v1).slice (win0_1.rect t)).set ↔ _
  rw [View.set_slice_whole, Rect.mem_set_unit]
  exact Iff.rfl

/-- The blocks tile the array: entry (b, c) is in the block of the point at (b / 16, c / 128). -/
theorem covered (i : S64x512.Idx) :
    ∃ t : Fin cfg0.N, (cfg0.win 1).flush t = true ∧ i ∈ ((cfg0.win 1).blk t).view.set := by
  have hi0 : (i 0).val < 64 := (i 0).isLt
  have hi1 : (i 1).val < 512 := (i 1).isLt
  obtain ⟨t, ht⟩ := index_onto ⟨(i 0).val / 16, by omega⟩ ⟨(i 1).val / 128, by omega⟩
  have q0 : win0_1.index t (0 : Fin 2) = (i 0).val / 16 := congrFun ht 0
  have q1 : win0_1.index t (1 : Fin 2) = (i 1).val / 128 := congrFun ht 1
  refine ⟨t, flush0_1 t, ?_⟩
  rw [mem_block]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 128 ≤ (i 1).val ∧ (i 1).val < win0_1.index t (1 : Fin 2) * 128 + 128; omega

/-- The output array after the region: the line means of the input array as the region found it. -/
theorem pooled (c : Dev nD) : (dat0 V c).arrAt 1 cfg0.N = lineMean (V c main_call0_v0) :=
  (dat0 V c).arrAt_eq_of_cover 1 (lineMean (V c main_call0_v0)) (fun t _ => flushed_eq V c t) (covered)

end Cert.KernelIdeal.PoolValue

end
-- ==== Proof.LibRank3Layout.lean ====
/-
  Three re-layings of small arrays that a rank-3 broadcast meets, each read at an index given by its coordinates.

  A matrix `[a, b]` becomes a stack of columns `[a, b, 1]` without moving an entry, and that stack is spread over a
  last axis of any length `c` by repeating each entry `c` times; a single sheet `[1, b, c]` is spread over a first axis of
  any length `a` by repeating the sheet `a` times.  Row-major positions decide the first (the unit axis contributes the
  factor `1` and the offset `0`), and the rule "a unit axis of the operand reads `0`, every other axis reads the
  result's coordinate" decides the other two.
-/
import Idealize.ShloMosaic.Lib.Pipeline.Value
import Idealize.ShloMosaic.Lib.ValueIdx

noncomputable section

namespace Idealize.ShloMosaic.Rank3Layout

open Idealize.ShloMosaic Idealize.ShloMosaic.ValueIdx

variable {α : Type}

/-- An `[a, b]` array cast to `[a, b, 1]` reads, at `(i, j, u)`, the operand at `(i, j)`: the two row-major positions are
    `i·b + j` and `(i·b + j)·1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand's one entry of column `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(i, j, k)`, the operand's one sheet at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.Rank3Layout

end
-- ==== Proof.ScaledArray.lean ====
/-
  What the scaling region leaves in its output array.

  The region walks an 8 × 4 grid.  At point (u, v) it stages the block of 8 batch rows × 128 channels × all 3136
  positions of the re-laid input and the matching 8 × 128 block of the gate, multiplies every position of line
  (row, channel) by that line's gate entry — the gate block re-laid as a stack of columns [8, 128, 1] and spread
  over the 3136 positions — and writes the product block back at block (u, v, 0).  The blocks tile the
  [64, 512, 3136] array and every entry of a block is overwritten, so whatever the output buffer held before, it ends
  as ONE function of the input array and the gate: entry (b, c, k) is xf (b, c, k) · g (b, c).
-/
import proofs.«115239_j10788957847763_2_alg».proof.Proof.Gen.KernelIdeal.Frame
import proofs.«115239_j10788957847763_2_alg».proof.Proof.LibRank3Layout
import Idealize.ShloMosaic.Lib.Pipeline.Value
import Idealize.ShloMosaic.Lib.ValueIdx

set_option maxRecDepth 16384

noncomputable section

namespace Cert.KernelIdeal.ScaleValue

open Cert.KernelIdeal Cert.KernelIdeal.Gen
open Idealize.ShloMosaic Idealize.ShloMosaic.TcCoe Idealize.SL.Sem Idealize.ShloMosaic.ValueIdx
open Idealize.ShloMosaic.Pipeline (Dat Cfg Window)

/-- Every position of line (b, c) of a [64, 512, 3136] array times entry (b, c) of a [64, 512] gate. -/
def scaled (xf : S64x512x3136.Idx → EReal) (g : S64x512.Idx → EReal) : S64x512x3136.Idx → EReal :=
  fun i => xf i * g (ix2 (i 0) (i 1))

theorem zero2 : (![0, 0] : Fin 2 → Nat) = fun _ => 0 := funext fun a => by fin_cases a <;> rfl
theorem zero3 : (![0, 0, 0] : Fin 3 → Nat) = fun _ => 0 := funext fun a => by fin_cases a <;> rfl

/-- The body's arithmetic on one staged pair of blocks, read at (p, q, k): the input block's entry times the gate
    block's entry of its line. -/
theorem blockScale_apply (x1 : FVec Ideal S8x128 .f32) (x0 : FVec Ideal S8x128x3136 .f32) (p : Fin 8) (q : Fin 128)
    (k : Fin 3136) : k1_pay1 (F := Ideal) x1 x0 (ix3 p q k) = x0 (ix3 p q k) * x1 (ix2 p q) := by
  unfold k1_pay1
  rw [mulf_apply, shapeCast_self, shapeCast_self]
  refine congrArg (fun z => x0 (ix3 p q k) * z) ?_
  refine (Rank3Layout.broadcastTo_ab1_abc_apply _ broadcasts_S8x128x1_S8x128x3136 p q k).trans ?_
  exact Rank3Layout.shapeCast_ab_ab1_apply x1 shapeCasts_S8x128_S8x128x1 p q 0

/-- The printed index maps, decided over the grid: both input blocks move with the output block on the batch and channel
    axes; the input's and the output's blocks sit at block 0 of the position axis; the output's block indices stay in
    the 8 × 4 range. -/
theorem index_facts : ∀ t : Fin cfg1.N, win1_0.index t (0 : Fin 3) = win1_2.index t (0 : Fin 3)
    ∧ win1_0.index t (1 : Fin 3) = win1_2.index t (1 : Fin 3)
    ∧ win1_0.index t (2 : Fin 3) = win1_2.index t (2 : Fin 3)
    ∧ win1_1.index t (0 : Fin 2) = win1_2.index t (0 : Fin 3)
    ∧ win1_1.index t (1 : Fin 2) = win1_2.index t (1 : Fin 3)
    ∧ win1_2.index t (0 : Fin 3) ≤ 7 ∧ win1_2.index t (1 : Fin 3) ≤ 3 ∧ win1_2.index t (2 : Fin 3) = 0 :=
  (by decide +kernel : ∀ t : Fin grid1.N, _)

/-- Every block of the 8 × 4 × 1 tiling is some point's. -/
theorem index_onto : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

variable (V : (c : Dev nD) → (b : Ref sig .tc) → Buf (Elt Ideal) ((c : Thread nD τ).loc b))

/-- What point `t` writes back is block `t` of the input array scaled by the gate, both as the region finds them. -/
theorem flushed_eq (c : Dev nD) (t : Fin cfg1.N) :
    (dat1 V c).flushed 2 t
      = ((cfg1.win 2).blk t).view.read (Elt Ideal) (scaled (V c main_call0_v0) (V c main_call0_v40)) := by
  show (cfg1.win 2).cut (grid1.coords t) ((dat1 V c).after 2 t) = _
  rw [after1_2]
  unfold out1_2
  rw [View.canon_unit_zero zero3]
  simp only [View.ld_unit_zero (S := S8x128x3136) zero3, View.ld_unit_zero (S := S8x128) zero2]
  obtain ⟨e0, e1, e2, e3, e4, e5, e6, e7⟩ := index_facts t
  funext j
  obtain ⟨p, q, k, rfl⟩ : ∃ (p : Fin 8) (q : Fin 128) (k : Fin 3136), j = ix3 p q k := ⟨j 0, j 1, j 2, eq_ix3 j⟩
  refine (blockScale_apply (iblk1 V c 1 t) (iblk1 V c 0 t) p q k).trans ?_
  show _ = scaled (V c main_call0_v0) (V c main_call0_v40) (((cfg1.win 2).blk t).view.emb (ix3 p q k))
  unfold scaled
  have h0 : ((cfg1.win 0).blk t).view.emb (ix3 p q k) = ((cfg1.win 2).blk t).view.emb (ix3 p q k) := by
    funext a; apply Fin.ext
    match a with
    | ⟨0, _⟩ => show win1_0.index t (0 : Fin 3) * 8 + 1 * p.val = win1_2.index t (0 : Fin 3) * 8 + 1 * p.val; omega
    | ⟨1, _⟩ => show win1_0.index t (1 : Fin 3) * 128 + 1 * q.val = win1_2.index t (1 : Fin 3) * 128 + 1 * q.val; omega
    | ⟨2, _⟩ => show win1_0.index t (2 : Fin 3) * 3136 + 1 * k.val = win1_2.index t (2 : Fin 3) * 3136 + 1 * k.val; omega
  have h1 : ((cfg1.win 1).blk t).view.emb (ix2 p q)
      = ix2 ((((cfg1.win 2).blk t).view.emb (ix3 p q k)) 0) ((((cfg1.win 2).blk t).view.emb (ix3 p q k)) 1) := by
    funext a; apply Fin.ext
    match a with
    | ⟨0, _⟩ => show win1_1.index t (0 : Fin 2) * 8 + 1 * p.val = win1_2.index t (0 : Fin 3) * 8 + 1 * p.val; omega
    | ⟨1, _⟩ => show win1_1.index t (1 : Fin 2) * 128 + 1 * q.val = win1_2.index t (1 : Fin 3) * 128 + 1 * q.val; omega
  refine congrArg₂ (fun a b : EReal => a * b) ?_ ?_
  · show V c main_call0_v0 (((cfg1.win 0).blk t).view.emb (ix3 p q k)) = _
    exact congrArg (V c main_call0_v0) h0
  · show V c main_call0_v40 (((cfg1.win 1).blk t).view.emb (ix2 p q)) = _
    exact congrArg (V c main_call0_v40) h1

/-- An index of the [64, 512, 3136] array is in point `t`'s block iff each coordinate is in the block's range on its axis. -/
theorem mem_block (t : Fin cfg1.N) (i : S64x512x3136.Idx) :
    i ∈ ((cfg1.win 2).blk t).view.set ↔ ∀ a : Fin 3, win1_2.index t a * S8x128x3136.size a ≤ (i a).val ∧ (i a).val < win1_2.index t a * S8x128x3136.size a + S8x128x3136.size a := by
  show i ∈ ((View.whole main_call0_v41).slice (win1_2.rect t)).set ↔ _
  rw [View.set_slice_whole, Rect.mem_set_unit]
  exact Iff.rfl

/-- The blocks tile the array: entry (b, c, k) is in the block of the point at (b / 8, c / 128, 0). -/
theorem covered (i : S64x512x3136.Idx) :
    ∃ t : Fin cfg1.N, (cfg1.win 2).flush t = true ∧ i ∈ ((cfg1.win 2).blk t).view.set := by
  have hi0 : (i 0).val < 64 := (i 0).isLt
  have hi1 : (i 1).val < 512 := (i 1).isLt
  have hi2 : (i 2).val < 3136 := (i 2).isLt
  obtain ⟨t, ht⟩ := index_onto ⟨(i 0).val / 8, by omega⟩ ⟨(i 1).val / 128, by omega⟩
  have q0 : win1_2.index t (0 : Fin 3) = (i 0).val / 8 := congrFun ht 0
  have q1 : win1_2.index t (1 : Fin 3) = (i 1).val / 128 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 8 ≤ (i 0).val ∧ (i 0).val < win1_2.index t (0 : Fin 3) * 8 + 8; omega
  | ⟨1, _⟩ => show win1_2.index t (1 : Fin 3) * 128 ≤ (i 1).val ∧ (i 1).val < win1_2.index t (1 : Fin 3) * 128 + 128; omega
  | ⟨2, _⟩ => show win1_2.index t (2 : Fin 3) * 3136 ≤ (i 2).val ∧ (i 2).val < win1_2.index t (2 : Fin 3) * 3136 + 3136; omega

/-- The output array after the region: the input array scaled line by line by the gate, both as the region found them. -/
theorem scaledArray (c : Dev nD) :
    (dat1 V c).arrAt 2 cfg1.N = scaled (V c main_call0_v0) (V c main_call0_v40) :=
  (dat1 V c).arrAt_eq_of_cover 2 (scaled (V c main_call0_v0) (V c main_call0_v40)) (fun t _ => flushed_eq V c t) (covered)

end Cert.KernelIdeal.ScaleValue

end
-- ==== Proof.Gate.lean ====
/-
  The squeeze-excite gate, as one function.

  From the pooled array s : [64, 512] and the ten parameter arrays, both programs compute the gate with the same
  host operations in the same order:
    h = relu (((s · w1ᵀ − mean1) · rsqrt (var1 + ε)) · gamma1 + beta1)            : [64, 32]
    g = 1 / (1 + exp (−(((h · w2ᵀ − mean2) · rsqrt (var2 + ε)) · gamma2 + beta2)))  : [64, 512]
  with ε the word 0x3727C5AC, the products contractions over the shared axis, and every [32] or [512] vector spread
  over the 64 rows.  Here that chain is named once, with the pooled array as its first argument; neither program's
  proof ever opens it: both sides are this function applied to their pooled arrays and the same parameters.

  The argument letters follow the programs' argument order: a1 = w1, a2 = gamma1, a3 = beta1, a4 = mean1, a5 = var1,
  a6 = w2, a7 = gamma2, a8 = beta2, a9 = mean2, a10 = var2.
-/
import proofs.«115239_j10788957847763_2_alg».proof.Proof.Gen.ReferenceIdeal

noncomputable section

namespace Cert.Gate

open Cert.ReferenceIdeal Cert.ReferenceIdeal.Gen Idealize.ShloMosaic Idealize.ShloMosaic.TcCoe Idealize.SL.Sem

variable {F : FTy → Type} [FloatOps F]

/-- The gate of the pooled array `s` under the parameters `a1 … a10`. -/
def gate (s : (⟨S64x512, .f32⟩ : BufTy).Contents (Elt F)) (a1 : (⟨S32x512, .f32⟩ : BufTy).Contents (Elt F))
    (a2 a3 a4 a5 : (⟨S32, .f32⟩ : BufTy).Contents (Elt F)) (a6 : (⟨S512x32, .f32⟩ : BufTy).Contents (Elt F))
    (a7 a8 a9 a10 : (⟨S512, .f32⟩ : BufTy).Contents (Elt F)) : (⟨S64x512, .f32⟩ : BufTy).Contents (Elt F) :=
  Host.divf (broadcastInDim S64x512 ![] bcast_S_S64x512 (constant S_ .f32 0x3F800000#32)) (addf (broadcastInDim
    S64x512 ![] bcast_S_S64x512 (constant S_ .f32 0x3F800000#32)) (Host.exp (Host.negf (addf (mulf (mulf (subf
    (Host.dotGeneral dot_S64x32_S512x32_S64x512_1_1_0_0_n_n none (maximumf (addf (mulf (mulf (subf (Host.dotGeneral
    dot_S64x512_S32x512_S64x32_1_1_0_0_n_n none s a1) (broadcastInDim S64x32 ![0, 1] bcast_S1x32_S64x32_0_1
    (broadcastInDim S1x32 ![1] bcast_S32_S1x32_1 a4))) (broadcastInDim S64x32 ![0, 1] bcast_S1x32_S64x32_0_1
    (broadcastInDim S1x32 ![1] bcast_S32_S1x32_1 (Host.rsqrt (addf a5 (broadcastInDim S32 ![] bcast_S_S32 (constant S_
    .f32 0x3727C5AC#32))))))) (broadcastInDim S64x32 ![0, 1] bcast_S1x32_S64x32_0_1 (broadcastInDim S1x32 ![1]
    bcast_S32_S1x32_1 a2))) (broadcastInDim S64x32 ![0, 1] bcast_S1x32_S64x32_0_1 (broadcastInDim S1x32 ![1]
    bcast_S32_S1x32_1 a3))) (broadcastInDim S64x32 ![] bcast_S_S64x32 (constant S_ .f32 0x00000000#32))) a6)
    (broadcastInDim S64x512 ![0, 1] bcast_S1x512_S64x512_0_1 (broadcastInDim S1x512 ![1] bcast_S512_S1x512_1 a9)))
    (broadcastInDim S64x512 ![0, 1] bcast_S1x512_S64x512_0_1 (broadcastInDim S1x512 ![1] bcast_S512_S1x512_1
    (Host.rsqrt (addf a10 (broadcastInDim S512 ![] bcast_S_S512 (constant S_ .f32 0x3727C5AC#32))))))) (broadcastInDim
    S64x512 ![0, 1] bcast_S1x512_S64x512_0_1 (broadcastInDim S1x512 ![1] bcast_S512_S1x512_1 a7))) (broadcastInDim
    S64x512 ![0, 1] bcast_S1x512_S64x512_0_1 (broadcastInDim S1x512 ![1] bcast_S512_S1x512_1 a8))))))

end Cert.Gate

end
-- ==== Proof.KernelValue.lean ====
/-
  The kernel program's result, as one function of its arguments.

  Reading the boundaries of the run from the last to the first:
    the result is the scaling region's output array re-laid as [64, 512, 56, 56];
    that array is the re-laid input xf scaled line by line by the gate;
    the gate's host arithmetic found the pooling region's output array and the ten parameter arrays as launched;
    the pooling region's output array is the line means of xf;
    and xf is the input re-laid as [64, 512, 3136].
  So the result is  reshape (scaled xf (gate (lineMean xf) a1 … a10))  with  xf = reshape x.
-/
import proofs.«115239_j10788957847763_2_alg».proof.Proof.KernelRun
import proofs.«115239_j10788957847763_2_alg».proof.Proof.PooledArray
import proofs.«115239_j10788957847763_2_alg».proof.Proof.ScaledArray
import proofs.«115239_j10788957847763_2_alg».proof.Proof.Gate
import Idealize.ShloMosaic.Lib.StableHlo.Run

set_option maxRecDepth 16384

noncomputable section

namespace Cert.KernelIdeal.ProgramValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The input re-laid as [64, 512, 3136]. -/
def relaid (c : Dev nD) : S64x512x3136.Idx → EReal :=
  shapeCast S64x512x3136 (m ((c : Thread nD τ).loc main_arg0)) shapeCasts_S64x512x56x56_S64x512x3136

/-- The program's result as a function of its launch memory. -/
def result (c : Dev nD) : S64x512x56x56.Idx → EReal :=
  shapeCast S64x512x56x56
    (ScaleValue.scaled (relaid m c)
      (Cert.Gate.gate (F := Ideal) (PoolValue.lineMean (relaid m c)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))))
    shapeCasts_S64x512x3136_S64x512x56x56

/-! ## The parameters reach the gate's arithmetic as launched -/

theorem W2_main_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_main_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem W2_main_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_main_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_main_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_main_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_main_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_main_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results)
theorem W2_main_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results)
theorem W2_main_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)

/-! ## The boundaries, from the first to the last -/

/-- The pooling region finds the input re-laid. -/
theorem entry_pool (c : Dev nD) : V1 m ρ c main_call0_v0 = relaid m c := by
  show StableHlo.after hostOps0 (W0 m ρ c) (Proc.devRef .tc main_call0_v0) = _
  after_results
  rfl

/-- It leaves the line means in its output array. -/
theorem exit_pool (c : Dev nD) : W2 m ρ c (Proc.devRef .tc main_call0_v1) = PoolValue.lineMean (relaid m c) :=
  (W2_arr m ρ c 1).trans ((PoolValue.pooled (V1 m ρ) c).trans (congrArg PoolValue.lineMean (entry_pool m ρ c)))

/-- The re-laid input is still there when the scaling region is entered: the pooling region only reads it (an input
    window is never written back), and the gate's arithmetic writes other buffers. -/
theorem entry_scale_input (c : Dev nD) : V3 m ρ c main_call0_v0 = relaid m c := by
  have h : StableHlo.after hostOps1 (W2 m ρ c) (Proc.devRef .tc main_call0_v0) = W2 m ρ c (Proc.devRef .tc main_call0_v0) := by
    after_results_simp
  refine h.trans ((W2_arr m ρ c 0).trans ?_)
  rw [(dat0 (V1 m ρ) c).arrAt_in 0 rfl cfg0.N, A_eq0]
  exact entry_pool m ρ c

set_option maxHeartbeats 2000000 in
/-- The gate the scaling region finds is the gate function of the pooling region's output and the parameters. -/
theorem entry_scale_gate (c : Dev nD) : V3 m ρ c main_call0_v40
    = Cert.Gate.gate (F := Ideal) (W2 m ρ c (Proc.devRef .tc main_call0_v1)) (W2 m ρ c (Proc.devRef .tc main_arg1)) (W2 m ρ c (Proc.devRef .tc main_arg2)) (W2 m ρ c (Proc.devRef .tc main_arg3)) (W2 m ρ c (Proc.devRef .tc main_arg4)) (W2 m ρ c (Proc.devRef .tc main_arg5)) (W2 m ρ c (Proc.devRef .tc main_arg6)) (W2 m ρ c (Proc.devRef .tc main_arg7)) (W2 m ρ c (Proc.devRef .tc main_arg8)) (W2 m ρ c (Proc.devRef .tc main_arg9)) (W2 m ρ c (Proc.devRef .tc main_arg10)) := by
  show StableHlo.after hostOps1 (W2 m ρ c) (Proc.devRef .tc main_call0_v40) = _
  after_results_simp
  rfl

/-- The scaling region leaves the re-laid input scaled by the gate. -/
theorem exit_scale (c : Dev nD) : W4 m ρ c (Proc.devRef .tc main_call0_v41)
    = ScaleValue.scaled (relaid m c)
        (Cert.Gate.gate (F := Ideal) (PoolValue.lineMean (relaid m c)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 2).trans ((ScaleValue.scaledArray (V3 m ρ) c).trans ?_)
  rw [entry_scale_input, entry_scale_gate, exit_pool, W2_main_arg1, W2_main_arg2, W2_main_arg3, W2_main_arg4, W2_main_arg5,
    W2_main_arg6, W2_main_arg7, W2_main_arg8, W2_main_arg9, W2_main_arg10]

/-- The result buffer at the last boundary. -/
theorem last_boundary (c : Dev nD) : W5 m ρ c (Proc.devRef .tc main_v0) = result m c := by
  have h : StableHlo.after hostOps2 (W4 m ρ c) (Proc.devRef .tc main_v0)
      = shapeCast S64x512x56x56 (W4 m ρ c (Proc.devRef .tc main_call0_v41)) shapeCasts_S64x512x3136_S64x512x56x56 := by
    after_results
    rfl
  refine h.trans ?_
  rw [exit_scale]
  rfl

/-! ## The run -/

/-- Every weakly fair execution of the kernel program terminates, nothing faulting, with the result buffer at
    `result` of the launch memory and every argument array as launched. -/
theorem run : θ_run defs (onTc (τ := τ) (main (F := Ideal))) ⟨m, fun _ => 0, ρ⟩ (fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c =>
    ⟨(h c _ (mem_uc main_v0 (by decide))).trans (last_boundary m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c)⟩)
    (RunValue.run_all m ρ)

end Cert.KernelIdeal.ProgramValue

end
-- ==== Proof.PoolSum.lean ====
/-
  The global average pool's sum, written two ways.

  The reference adds up `x[b, c, :, :]` over the two trailing axes of length 56: the sum of `x` over the set of
  indices of `[64, 512, 56, 56]` whose first two coordinates are `(b, c)`.  The kernel first re-lays `x` as
  `[64, 512, 3136]` without moving an entry and adds up the last axis.  Both are the double sum
  `∑ p, ∑ q, x (b, c, p, q)`:

  * the indices with leading coordinates `(b, c)` are exactly the `(b, c, p, q)`, one for each pair `(p, q)`;
  * the entry of the re-laid array at `(b, c, k)` with `k = 56·p + q` is `x (b, c, p, q)`, since the two row-major
    positions `(b·512 + c)·3136 + k` and `((b·512 + c)·56 + p)·56 + q` are the same number, and
    `(p, q) ↦ 56·p + q` is a bijection from pairs below 56 onto the numbers below 3136.

  Only the commutativity and associativity of `+` are used (a sum re-indexed along a bijection).
-/
import Idealize.ShloMosaic.PureOps.Ideal.Laws
import Idealize.ShloMosaic.Lib.Pipeline.Value
import Idealize.ShloMosaic.Lib.ValueIdx

noncomputable section

namespace Cert.SqueezeExcite

open Idealize.ShloMosaic Idealize.ShloMosaic.ValueIdx

/-- Dropping the two trailing axes of `(b, c, p, q)` leaves `(b, c)`. -/
theorem drop_ix4
    (h' : (⟨4, ![64, 512, 56, 56]⟩ : Shape).ReducesTo [2, 3] ⟨2, ![64, 512]⟩)
    (b : Fin 64) (c : Fin 512) (p q : Fin 56) :
    h'.drop (ix4 b c p q) = ix2 b c := by
  funext a
  apply Fin.ext
  match a with
  | ⟨0, _⟩ => exact Shape.ReducesTo.drop_apply_val_of_eq h' (ix4 b c p q) ⟨0, by decide⟩ 0
  | ⟨1, _⟩ => exact Shape.ReducesTo.drop_apply_val_of_eq h' (ix4 b c p q) ⟨1, by decide⟩ 1

/-- An index whose two leading coordinates are `(b, c)` is `(b, c, p, q)` for its own two trailing coordinates. -/
theorem eq_ix4_of_drop
    (h' : (⟨4, ![64, 512, 56, 56]⟩ : Shape).ReducesTo [2, 3] ⟨2, ![64, 512]⟩)
    (b : Fin 64) (c : Fin 512) (i : (⟨4, ![64, 512, 56, 56]⟩ : Shape).Idx)
    (hi : h'.drop i = ix2 b c) :
    ix4 b c (i 2) (i 3) = i := by
  have h0 : (i 0).val = b.val := by
    rw [← Shape.ReducesTo.drop_apply_val_of_eq h' i ⟨0, by decide⟩ 0, hi]
  have h1 : (i 1).val = c.val := by
    rw [← Shape.ReducesTo.drop_apply_val_of_eq h' i ⟨1, by decide⟩ 1, hi]
  funext a
  apply Fin.ext
  match a with
  | ⟨0, _⟩ => exact h0.symm
  | ⟨1, _⟩ => exact h1.symm
  | ⟨2, _⟩ => rfl
  | ⟨3, _⟩ => rfl

/-- The reference's pool: the sum over the two trailing axes is the double sum over their coordinates. -/
theorem hostPool_eq_doubleSum
    (x : (⟨4, ![64, 512, 56, 56]⟩ : Shape).Idx → EReal)
    (h' : (⟨4, ![64, 512, 56, 56]⟩ : Shape).ReducesTo [2, 3] ⟨2, ![64, 512]⟩)
    (b : Fin 64) (c : Fin 512) :
    Ideal.hostReduceAdd h' x 0 (ix2 b c) = ∑ p : Fin 56, ∑ q : Fin 56, x (ix4 b c p q) := by
  show 0 + ∑ i ∈ Finset.univ.filter (fun i => h'.drop i = ix2 b c), x i = _
  rw [zero_add, ← Fintype.sum_prod_type (f := fun pq : Fin 56 × Fin 56 => x (ix4 b c pq.1 pq.2))]
  refine Finset.sum_nbij' (fun i => ((i 2 : Fin 56), (i 3 : Fin 56))) (fun pq => ix4 b c pq.1 pq.2)
    (fun _ _ => Finset.mem_univ _) (fun pq _ => ?_) (fun i hi => ?_) (fun _ _ => rfl) (fun i hi => ?_)
  · exact Finset.mem_filter.2 ⟨Finset.mem_univ _, drop_ix4 h' b c pq.1 pq.2⟩
  · exact eq_ix4_of_drop h' b c i (Finset.mem_filter.1 hi).2
  · exact congrArg x (eq_ix4_of_drop h' b c i (Finset.mem_filter.1 hi).2).symm

/-- Pairs of numbers below 56 and numbers below 3136, `(p, q) ↦ 56·p + q`. -/
def pairEquiv : Fin 56 × Fin 56 ≃ Fin 3136 :=
  finProdFinEquiv.trans (finCongr (by norm_num))

theorem pairEquiv_val (pq : Fin 56 × Fin 56) : (pairEquiv pq).val = pq.2.val + 56 * pq.1.val := rfl

/-- The kernel's pool: the sum over the last axis of the re-laid array is the same double sum. -/
theorem laneSum_eq_doubleSum
    (x : (⟨4, ![64, 512, 56, 56]⟩ : Shape).Idx → EReal)
    (hc : (⟨4, ![64, 512, 56, 56]⟩ : Shape).ShapeCasts ⟨3, ![64, 512, 3136]⟩)
    (b : Fin 64) (c : Fin 512) :
    ∑ k : Fin 3136, shapeCast ⟨3, ![64, 512, 3136]⟩ x hc (ix3 b c k)
      = ∑ p : Fin 56, ∑ q : Fin 56, x (ix4 b c p q) := by
  rw [← Fintype.sum_prod_type (f := fun pq : Fin 56 × Fin 56 => x (ix4 b c pq.1 pq.2))]
  refine (Fintype.sum_equiv pairEquiv (fun pq : Fin 56 × Fin 56 => x (ix4 b c pq.1 pq.2))
    (fun k => shapeCast ⟨3, ![64, 512, 3136]⟩ x hc (ix3 b c k)) (fun pq => ?_)).symm
  refine (shapeCast_apply x hc (ix3 b c (pairEquiv pq)) (ix4 b c pq.1 pq.2) ?_).symm
  rw [Shape.rowMajor_val_four, Shape.rowMajor_val_three]
  show ((b.val * 512 + c.val) * 56 + pq.1.val) * 56 + pq.2.val
      = (b.val * 512 + c.val) * 3136 + (pairEquiv pq).val
  rw [pairEquiv_val]
  omega

/-- The reference's pool and the kernel's are the same sum. -/
theorem hostPool_eq_laneSum
    (x : (⟨4, ![64, 512, 56, 56]⟩ : Shape).Idx → EReal)
    (h' : (⟨4, ![64, 512, 56, 56]⟩ : Shape).ReducesTo [2, 3] ⟨2, ![64, 512]⟩)
    (hc : (⟨4, ![64, 512, 56, 56]⟩ : Shape).ShapeCasts ⟨3, ![64, 512, 3136]⟩)
    (b : Fin 64) (c : Fin 512) :
    Ideal.hostReduceAdd h' x 0 (ix2 b c)
      = ∑ k : Fin 3136, shapeCast ⟨3, ![64, 512, 3136]⟩ x hc (ix3 b c k) :=
  (hostPool_eq_doubleSum x h' b c).trans (laneSum_eq_doubleSum x hc b c).symm

end Cert.SqueezeExcite

end
-- ==== Proof.ReferenceValue.lean ====
/-
  The reference program's result, read at an entry.

  The reference pools x over its two axes of length 56 with the host's sum from the zero word and divides by the word
  of 3136.0; computes the gate from that pooled array and the ten parameters; spreads the gate over the two trailing
  axes; and multiplies x by it.  So entry (b, c, p, q) of its result is x (b, c, p, q) · g (b, c) with
  g = gate (hostMean x) a1 … a10, and entry (b, c) of hostMean x is the sum of line (b, c) of x re-laid as
  [64, 512, 3136], divided by the word of 3136.0 — the same sum as the host's two-axis sum, re-indexed.
-/
import proofs.«115239_j10788957847763_2_alg».proof.Proof.Gen.ReferenceIdeal.Run
import proofs.«115239_j10788957847763_2_alg».proof.Proof.Gate
import proofs.«115239_j10788957847763_2_alg».proof.Proof.PoolSum
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen
open Idealize.ShloMosaic Idealize.ShloMosaic.TcCoe Idealize.SL.Sem Idealize.ShloMosaic.ValueIdx

/-- The reference's pooled array: the host's sum of x over axes 2 and 3 from the zero word, divided by the word of
    3136.0. -/
def hostMean (x : FVec Ideal S64x512x56x56 .f32) : FVec Ideal S64x512 .f32 :=
  Host.divf (Host.reduceAdd x (constant (F := Ideal) S_ .f32 0x00000000#32) reducesTo_S64x512x56x56_S64x512_d2_3 h_S_)
    (broadcastInDim S64x512 ![] bcast_S_S64x512 (constant (F := Ideal) S_ .f32 0x45440000#32))

/-- The reference's result as a function of its argument arrays. -/
def result (x : FVec Ideal S64x512x56x56 .f32) (a1 : FVec Ideal S32x512 .f32) (a2 a3 a4 a5 : FVec Ideal S32 .f32) (a6 : FVec Ideal S512x32 .f32)
    (a7 a8 a9 a10 : FVec Ideal S512 .f32) : FVec Ideal S64x512x56x56 .f32 :=
  mulf x (broadcastInDim S64x512x56x56 ![0, 1, 2, 3] bcast_S64x512x1x1_S64x512x56x56_0_1_2_3
    (broadcastInDim S64x512x1x1 ![0, 1] bcast_S64x512_S64x512x1x1_0_1
      (Cert.Gate.gate (F := Ideal) (hostMean x) a1 a2 a3 a4 a5 a6 a7 a8 a9 a10)))

/-- Entry (b, c) of the pooled array: the sum of line (b, c) of x re-laid as [64, 512, 3136], over the word of 3136.0. -/
theorem hostMean_apply (x : FVec Ideal S64x512x56x56 .f32)
    (hc : (⟨4, ![64, 512, 56, 56]⟩ : Shape).ShapeCasts ⟨3, ![64, 512, 3136]⟩) (b : Fin 64) (c : Fin 512) :
    hostMean x (ix2 b c)
      = Ideal.div (∑ k : Fin 3136, shapeCast ⟨3, ![64, 512, 3136]⟩ x hc (ix3 b c k)) (Ideal.ofBits .f32 0x45440000#32) := by
  show Ideal.div (Ideal.hostReduceAdd reducesTo_S64x512x56x56_S64x512_d2_3 x (Ideal.ofBits .f32 0x00000000#32) (ix2 b c))
      (broadcastInDim S64x512 ![] bcast_S_S64x512 (constant (F := Ideal) S_ .f32 0x45440000#32) (ix2 b c)) = _
  refine congrArg₂ Ideal.div ?_ ?_
  · rw [Ideal.ofBits_zero_f32]
    exact Cert.SqueezeExcite.hostPool_eq_laneSum x reducesTo_S64x512x56x56_S64x512_d2_3 hc b c
  · exact broadcastInDim_apply _ bcast_S_S64x512 (constant (F := Ideal) S_ .f32 0x45440000#32) (ix2 b c)
      (fun a => a.elim0) (fun a => a.elim0)

/-- Entry (b, c, p, q) of the result: x there, times the gate at (b, c). -/
theorem result_apply (x : FVec Ideal S64x512x56x56 .f32) (a1 : FVec Ideal S32x512 .f32) (a2 a3 a4 a5 : FVec Ideal S32 .f32) (a6 : FVec Ideal S512x32 .f32)
    (a7 a8 a9 a10 : FVec Ideal S512 .f32)
    (b : Fin 64) (c : Fin 512) (p q : Fin 56) :
    result x a1 a2 a3 a4 a5 a6 a7 a8 a9 a10 (ix4 b c p q)
      = x (ix4 b c p q) * Cert.Gate.gate (F := Ideal) (hostMean x) a1 a2 a3 a4 a5 a6 a7 a8 a9 a10 (ix2 b c) := by
  unfold result
  generalize Cert.Gate.gate (F := Ideal) (hostMean x) a1 a2 a3 a4 a5 a6 a7 a8 a9 a10 = g
  rw [mulf_apply]
  refine congrArg (fun z => x (ix4 b c p q) * z) ?_
  refine (broadcastInDim_apply _ bcast_S64x512x1x1_S64x512x56x56_0_1_2_3 _ (ix4 b c p q)
    (ix4 b c (0 : Fin 1) (0 : Fin 1)) (fun a => match a with
    | ⟨0, _⟩ => by show b.val = if (64 : Nat) = 1 then 0 else b.val; rw [if_neg (by decide)]
    | ⟨1, _⟩ => by show c.val = if (512 : Nat) = 1 then 0 else c.val; rw [if_neg (by decide)]
    | ⟨2, _⟩ => by show 0 = if (1 : Nat) = 1 then 0 else p.val; rw [if_pos rfl]
    | ⟨3, _⟩ => by show 0 = if (1 : Nat) = 1 then 0 else q.val; rw [if_pos rfl])).trans ?_
  exact broadcastInDim_apply _ bcast_S64x512_S64x512x1x1_0_1 g (ix4 b c (0 : Fin 1) (0 : Fin 1)) (ix2 b c)
    (fun a => match a with
    | ⟨0, _⟩ => by show b.val = if (64 : Nat) = 1 then 0 else b.val; rw [if_neg (by decide)]
    | ⟨1, _⟩ => by show c.val = if (512 : Nat) = 1 then 0 else c.val; rw [if_neg (by decide)])

variable (m : (ℓ : Loc nD τ sig) → Buf (Elt Ideal) ℓ) (ρ : Dev nD → PrngReg)

/-- Every weakly fair execution of the reference program terminates, nothing faulting, with the result buffer at
    `result` of the launch memory and every argument array as launched: the generated run, its composed term named. -/
theorem run : θ_run defs (onTc (τ := τ) (main (F := Ideal))) ⟨m, fun _ => 0, ρ⟩ (fun r => ∀ c : Dev nD,
      r.2.mem ((c.tc : Thread nD τ).loc main_v44)
        = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans rfl, (h c).2⟩) (Cert.ReferenceIdeal.Value.run (F := Ideal) m ρ)

end Cert.ReferenceIdeal.RefValue

end
-- ==== Proof.Bridge.lean ====
/-
  The two results are one function.

  Kernel:     reshape (scaled xf (gate (lineMean xf) a1 … a10)),  xf = x re-laid as [64, 512, 3136].
  Reference:  x · spread (gate (hostMean x) a1 … a10).

  The pooled arrays agree: entry (b, c) of either is the sum of line (b, c) of xf over the word of 3136.0 (for the
  reference this is the host's two-axis sum re-indexed along (p, q) ↦ 56·p + q).  So the two gates are the same array g.
  At entry (b, c, p, q) the kernel's result is the scaled array at (b, c, 56·p + q) — the row-major positions
  ((b·512 + c)·56 + p)·56 + q and (b·512 + c)·3136 + (56·p + q) are the same number — which is
  xf (b, c, 56·p + q) · g (b, c) = x (b, c, p, q) · g (b, c), the reference's entry.  No law beyond re-indexing a sum is
  used, so nothing here depends on the entries being finite.
-/
import proofs.«115239_j10788957847763_2_alg».proof.Proof.PooledArray
import proofs.«115239_j10788957847763_2_alg».proof.Proof.ScaledArray
import proofs.«115239_j10788957847763_2_alg».proof.Proof.ReferenceValue

noncomputable section

namespace Cert.Bridge

open Idealize.ShloMosaic Idealize.ShloMosaic.ValueIdx
open Cert.KernelIdeal.PoolValue Cert.KernelIdeal.ScaleValue Cert.ReferenceIdeal.RefValue

/-- The kernel's pooled array is the reference's. -/
theorem lineMean_eq_hostMean (x : (⟨4, ![64, 512, 56, 56]⟩ : Shape).Idx → EReal)
    (h1 : (⟨4, ![64, 512, 56, 56]⟩ : Shape).ShapeCasts ⟨3, ![64, 512, 3136]⟩) :
    lineMean (shapeCast ⟨3, ![64, 512, 3136]⟩ x h1) = hostMean x := by
  funext j
  obtain ⟨b, c, rfl⟩ : ∃ (b : Fin 64) (c : Fin 512), j = ix2 b c := ⟨j 0, j 1, eq_ix2 j⟩
  exact (hostMean_apply x h1 b c).symm

/-- Entry 56·p + q of a line of 3136 positions. -/
def pos (p q : Fin 56) : Fin 3136 := ⟨p.val * 56 + q.val, by have := p.isLt; have := q.isLt; omega⟩

/-- The kernel's result array is the reference's. -/
theorem agree (x : (⟨4, ![64, 512, 56, 56]⟩ : Shape).Idx → EReal)
    (a1 : FVec Ideal Cert.ReferenceIdeal.S32x512 .f32) (a2 a3 a4 a5 : FVec Ideal Cert.ReferenceIdeal.S32 .f32) (a6 : FVec Ideal Cert.ReferenceIdeal.S512x32 .f32)
    (a7 a8 a9 a10 : FVec Ideal Cert.ReferenceIdeal.S512 .f32)
    (h1 : (⟨4, ![64, 512, 56, 56]⟩ : Shape).ShapeCasts ⟨3, ![64, 512, 3136]⟩)
    (h2 : (⟨3, ![64, 512, 3136]⟩ : Shape).ShapeCasts ⟨4, ![64, 512, 56, 56]⟩) :
    shapeCast ⟨4, ![64, 512, 56, 56]⟩
        (scaled (shapeCast ⟨3, ![64, 512, 3136]⟩ x h1)
          (Cert.Gate.gate (F := Ideal) (lineMean (shapeCast ⟨3, ![64, 512, 3136]⟩ x h1)) a1 a2 a3 a4 a5 a6 a7 a8 a9 a10)) h2
      = result x a1 a2 a3 a4 a5 a6 a7 a8 a9 a10 := by
  rw [lineMean_eq_hostMean x h1]
  generalize hg : Cert.Gate.gate (F := Ideal) (hostMean x) a1 a2 a3 a4 a5 a6 a7 a8 a9 a10 = g
  funext i
  obtain ⟨b, c, p, q, rfl⟩ : ∃ (b : Fin 64) (c : Fin 512) (p q : Fin 56), i = ix4 b c p q :=
    ⟨i 0, i 1, i 2, i 3, eq_ix4 i⟩
  rw [result_apply, hg]
  have hpos : ((⟨3, ![64, 512, 3136]⟩ : Shape).rowMajor (ix3 b c (pos p q))).val
      = ((⟨4, ![64, 512, 56, 56]⟩ : Shape).rowMajor (ix4 b c p q)).val := by
    rw [Shape.rowMajor_val_four, Shape.rowMajor_val_three]
    show (b.val * 512 + c.val) * 3136 + (p.val * 56 + q.val) = ((b.val * 512 + c.val) * 56 + p.val) * 56 + q.val
    omega
  refine (shapeCast_apply _ h2 (ix4 b c p q) (ix3 b c (pos p q)) hpos).trans ?_
  show shapeCast ⟨3, ![64, 512, 3136]⟩ x h1 (ix3 b c (pos p q)) * g (ix2 b c) = _
  rw [shapeCast_apply x h1 (ix3 b c (pos p q)) (ix4 b c p q) hpos.symm]

end Cert.Bridge

end
-- ==== Proof.lean ====
/-
  A squeeze-excite block: the kernel program equals its reference at the ideal values.

  Both programs compute  out[b, c, p, q] = x[b, c, p, q] · g[b, c]  with  g = gate (pool x)  and
  pool x [b, c] = (∑ over the 56 × 56 positions of x[b, c, ·, ·]) / 3136.0.

  The kernel program re-lays x as xf : [64, 512, 3136], pools in a first region (a 4 × 4 grid of 16 × 128 × 3136 blocks,
  each line summed over its 3136 positions and divided by the word of 3136.0), computes the gate with host
  arithmetic, scales xf by the gate in a second region (an 8 × 4 grid of 8 × 128 × 3136 blocks), and re-lays the
  product as [64, 512, 56, 56].  The reference pools with the host's two-axis sum, computes the gate with the same
  host arithmetic, spreads it over the positions and multiplies.

  What is proved by hand:
    * the run of the kernel program names every buffer at the last boundary (KernelRun);
    * each region's output array is one function of the arrays the region finds (PooledArray, ScaledArray), and the
      boundaries compose to the kernel's result as one function of its arguments (KernelValue);
    * the reference's result read at an entry (ReferenceValue), the host's two-axis sum being the sum over the
      re-laid line (PoolSum);
    * the two results are one function, entry by entry (Bridge).  The gate is carried as one named function (Gate)
      and never opened.  Only a re-indexing of a finite sum is used, so the precondition is never opened.
  The three frame claims are the generated frames; the reference's is its generated run with the result dropped.  The
  idealization rewrote nothing, so the preservation claim is `True`.
-/
import proofs.«115239_j10788957847763_2_alg».proof.Defs
import proofs.«115239_j10788957847763_2_alg».proof.Proof.Gen.Kernel
import proofs.«115239_j10788957847763_2_alg».proof.Proof.Gen.Kernel.Skeleton
import proofs.«115239_j10788957847763_2_alg».proof.Proof.Gen.Kernel.Launch
import proofs.«115239_j10788957847763_2_alg».proof.Proof.Gen.Kernel.Points
import proofs.«115239_j10788957847763_2_alg».proof.Proof.Gen.Kernel.Frame
import proofs.«115239_j10788957847763_2_alg».proof.Proof.Gen.KernelIdeal
import proofs.«115239_j10788957847763_2_alg».proof.Proof.Gen.KernelIdeal.Skeleton
import proofs.«115239_j10788957847763_2_alg».proof.Proof.Gen.KernelIdeal.Launch
import proofs.«115239_j10788957847763_2_alg».proof.Proof.Gen.KernelIdeal.Points
import proofs.«115239_j10788957847763_2_alg».proof.Proof.Gen.KernelIdeal.Frame
import proofs.«115239_j10788957847763_2_alg».proof.Proof.Gen.ReferenceIdeal
import proofs.«115239_j10788957847763_2_alg».proof.Proof.Gen.Pre_finite_inputs
import proofs.«115239_j10788957847763_2_alg».proof.Proof.Gen.ReferenceIdeal.Run
import proofs.«115239_j10788957847763_2_alg».proof.Proof.KernelValue
import proofs.«115239_j10788957847763_2_alg».proof.Proof.ReferenceValue
import proofs.«115239_j10788957847763_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run, and their results are equal entry by
    entry: the kernel's result function of the arguments is the reference's. -/
theorem algebraic : Cert.algebraic_KernelIdeal_ReferenceIdeal := by
  intro m ρ m' ρ' _ hagree
  refine ⟨fun c => Cert.KernelIdeal.ProgramValue.result m c, Cert.KernelIdeal.ProgramValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10⟩ := hagree c
  rw [e0, e1, e2, e3, e4, e5, e6, e7, e8, e9, e10]
  exact (Cert.Bridge.agree _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
